-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x4096 .f32) (main_arg8 : FVec F S1024 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S4096 .f32) (main_arg5 : FVec F S4096x4096 .f32) (main_arg6 : FVec F S4096 .f32) (main_arg7 : FVec F S1024x4096 .f32) (main_arg8 : FVec F S1024 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S4096 .f32) (main_arg3 : FVec F S4096x4096 .f32) (main_arg4 : FVec F S4096 .f32) (main_arg5 : FVec F S4096x4096 .f32) (main_arg6 : FVec F S4096 .f32) (main_arg7 : FVec F S1024x4096 .f32) (main_arg8 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S1x4096 : Shape := ⟨2, ![1, 4096]⟩
abbrev S512x1024 : Shape := ⟨2, ![512, 1024]⟩
abbrev S512x4096 : Shape := ⟨2, ![512, 4096]⟩
abbrev S128x4096 : Shape := ⟨2, ![128, 4096]⟩
abbrev S1x1024 : Shape := ⟨2, ![1, 1024]⟩

abbrev nBuf : Space → Nat
  | .hbm => 22
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1024x4096, .f32⟩
  | .hbm, ⟨8, _⟩ => ⟨S1024, .f32⟩
  | .hbm, ⟨9, _⟩ => ⟨S4096x1024, .bf16⟩
  | .hbm, ⟨10, _⟩ => ⟨S4096x1024, .bf16⟩
  | .hbm, ⟨11, _⟩ => ⟨S4096x4096, .bf16⟩
  | .hbm, ⟨12, _⟩ => ⟨S4096x4096, .bf16⟩
  | .hbm, ⟨13, _⟩ => ⟨S1024x4096, .bf16⟩
  | .hbm, ⟨14, _⟩ => ⟨S1x4096, .f32⟩
  | .hbm, ⟨15, _⟩ => ⟨S4096x4096, .bf16⟩
  | .hbm, ⟨16, _⟩ => ⟨S1x4096, .f32⟩
  | .hbm, ⟨17, _⟩ => ⟨S4096x4096, .bf16⟩
  | .hbm, ⟨18, _⟩ => ⟨S1x4096, .f32⟩
  | .hbm, ⟨19, _⟩ => ⟨S4096x4096, .bf16⟩
  | .hbm, ⟨20, _⟩ => ⟨S1x1024, .f32⟩
  | .hbm, ⟨21, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S1x4096, .f32⟩
  | .local _ .vmem, ⟨4, _⟩ => ⟨S512x4096, .bf16⟩
  | .local _ .vmem, ⟨5, _⟩ => ⟨S512x4096, .bf16⟩
  | .local _ .vmem, ⟨6, _⟩ => ⟨S128x4096, .bf16⟩
  | .local _ .vmem, ⟨7, _⟩ => ⟨S128x4096, .bf16⟩
  | .local _ .vmem, ⟨8, _⟩ => ⟨S4096x4096, .bf16⟩
  | .local _ .vmem, ⟨9, _⟩ => ⟨S1x4096, .f32⟩
  | .local _ .vmem, ⟨10, _⟩ => ⟨S128x4096, .bf16⟩
  | .local _ .vmem, ⟨11, _⟩ => ⟨S128x4096, .bf16⟩
  | .local _ .vmem, ⟨12, _⟩ => ⟨S128x4096, .bf16⟩
  | .local _ .vmem, ⟨13, _⟩ => ⟨S128x4096, .bf16⟩
  | .local _ .vmem, ⟨14, _⟩ => ⟨S4096x4096, .bf16⟩
  | .local _ .vmem, ⟨15, _⟩ => ⟨S1x4096, .f32⟩
  | .local _ .vmem, ⟨16, _⟩ => ⟨S128x4096, .bf16⟩
  | .local _ .vmem, ⟨17, _⟩ => ⟨S128x4096, .bf16⟩
  | .local _ .vmem, ⟨18, _⟩ => ⟨S512x4096, .bf16⟩
  | .local _ .vmem, ⟨19, _⟩ => ⟨S512x4096, .bf16⟩
  | .local _ .vmem, ⟨20, _⟩ => ⟨S1024x4096, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S128x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bitsLt_bf16_f32 : FTy.bits .bf16 < FTy.bits .f32
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  broadcasts_S1x4096_S128x4096 : S1x4096.Broadcasts S128x4096
  packedbf16_S128x4096_S128x4096_0_0 : (Rect.unit (s := S128x4096) ![0, 0] S128x4096.size inb_S128x4096_S128x4096_0_0).PackedRows (EltTy.packing .bf16)
  shapeCasts_S1024_S1x1024 : S1024.ShapeCasts S1x1024
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S4096x1024_S512x4096_1_1_0_0_n_n_wf : DotDims.WF S512x1024 S4096x1024 S512x4096 [1] [1] [0] [0] [] []
  dot_S128x4096_S4096x4096_S128x4096_1_1_0_0_n_n_wf : DotDims.WF S128x4096 S4096x4096 S128x4096 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .bf16 = 32 ∨ (Rect.block (s := S4096x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .bf16 = 32 ∨ (Rect.block (s := S4096x4096) S128x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S4096x4096.size a
  hwx1_3 : ∀ i : grid1.Coords, EltTy.bits .bf16 = 32 ∨ (Rect.block (s := S4096x4096) S128x4096.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x4096.size a ≤ S4096x4096.size a
  hwx2_0 : ∀ i : grid2.Coords, EltTy.bits .bf16 = 32 ∨ (Rect.block (s := S4096x4096) S128x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x4096.size a ≤ S4096x4096.size a
  hwx2_1 : ∀ i : grid2.Coords, EltTy.bits .bf16 = 32 ∨ (Rect.block (s := S4096x4096) S4096x4096.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4096.size a ≤ S1x4096.size a
  hwx2_2 : ∀ i : grid2.Coords, EltTy.bits .f32 = 32 ∨ (Rect.block (s := S1x4096) S1x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x4096.size a ≤ S4096x4096.size a
  hwx2_3 : ∀ i : grid2.Coords, EltTy.bits .bf16 = 32 ∨ (Rect.block (s := S4096x4096) S128x4096.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S4096x4096.size a
  hwx3_0 : ∀ i : grid3.Coords, EltTy.bits .bf16 = 32 ∨ (Rect.block (s := S4096x4096) S512x4096.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x4096.size a ≤ S1024x4096.size a
  hwx3_1 : ∀ i : grid3.Coords, EltTy.bits .bf16 = 32 ∨ (Rect.block (s := S1024x4096) S1024x4096.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S4096x1024.size a
  hwx3_3 : ∀ i : grid3.Coords, EltTy.bits .f32 = 32 ∨ (Rect.block (s := S4096x1024) S512x1024.size (cc3_transform_3 i) (hinb3_3 i)).WholeWords (EltTy.packing .f32)

variable [Facts₀]

def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf
def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S128x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S128x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S4096x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S128x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v10) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S1024x4096.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S1x4096 : Shape := ⟨2, ![1, 4096]⟩
abbrev S_ : Shape := ⟨0, ![]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1024x4096, .f32⟩
  | .hbm, ⟨8, _⟩ => ⟨S1024, .f32⟩
  | .hbm, ⟨9, _⟩ => ⟨S1024x4096, .f32⟩
  | .hbm, ⟨10, _⟩ => ⟨S4096x4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  transposes_S1024x4096_S4096x1024_1_0 : S1024x4096.Transposes [1, 0] S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x4096_S4096x4096_1_0_0_1_n_n_wf : DotDims.WF S4096x1024 S1024x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Spec.lean ====
/-
  The function both programs compute, on the extended reals: four affine layers, the first three followed by
  a rectifier.  An affine layer takes a batch `x` of `M` rows of length `K`, a weight matrix `w` of `N` rows of
  length `K` (stored output-major, so the layer multiplies by its transpose) and a bias `b` of length `N`:
  entry `(r, n)` of the result is `∑ k, x (r, k) · w (n, k)`, plus `b n`.  No rounding is left in it: at the
  ideal values a change of float format is the identity, so the kernel's bf16 operands and the reference's f32
  ones are the same extended reals.
-/
import Idealize.ShloMosaic.PureOps.Ideal
import Idealize.ShloMosaic.Lib.ValueIdx

noncomputable section

namespace Cert.Mlp

open Idealize.ShloMosaic Idealize.ShloMosaic.ValueIdx

/-- One affine layer `x · wᵀ + b`, entry by entry. -/
def affine {M K N : Nat} (x : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => (∑ k : Fin K, x (ix2 (i 0) k) * w (ix2 (i 1) k)) + b (ix1 (i 1))

theorem affine_apply {M K N : Nat} (x : (⟨2, ![M, K]⟩ : Shape).Idx → EReal) (w : (⟨2, ![N, K]⟩ : Shape).Idx → EReal)
    (b : (⟨1, ![N]⟩ : Shape).Idx → EReal) (r : Fin M) (n : Fin N) :
    affine x w b (ix2 r n) = (∑ k : Fin K, x (ix2 r k) * w (ix2 n k)) + b (ix1 n) := rfl

/-- The rectifier `max · 0`, entry by entry. -/
def relu {S : Shape} (v : S.Idx → EReal) : S.Idx → EReal := fun i => max (v i) 0

theorem relu_apply {S : Shape} (v : S.Idx → EReal) (i : S.Idx) : relu v i = max (v i) 0 := rfl

/-- A one-row matrix `[1, N]` read as the vector of its row (the kernel is handed each bias as such a row). -/
def rowOf {N : Nat} (b : (⟨2, ![1, N]⟩ : Shape).Idx → EReal) : (⟨1, ![N]⟩ : Shape).Idx → EReal := fun j => b (ix2 0 (j 0))

theorem rowOf_apply {N : Nat} (b : (⟨2, ![1, N]⟩ : Shape).Idx → EReal) (n : Fin N) : rowOf b (ix1 n) = b (ix2 0 n) := rfl

/-- The whole network: three rectified affine layers and a last affine one. -/
def net (x w1 : (⟨2, ![4096, 1024]⟩ : Shape).Idx → EReal) (b1 : (⟨1, ![4096]⟩ : Shape).Idx → EReal)
    (w2 : (⟨2, ![4096, 4096]⟩ : Shape).Idx → EReal) (b2 : (⟨1, ![4096]⟩ : Shape).Idx → EReal)
    (w3 : (⟨2, ![4096, 4096]⟩ : Shape).Idx → EReal) (b3 : (⟨1, ![4096]⟩ : Shape).Idx → EReal)
    (w4 : (⟨2, ![1024, 4096]⟩ : Shape).Idx → EReal) (b4 : (⟨1, ![1024]⟩ : Shape).Idx → EReal) :
    (⟨2, ![4096, 1024]⟩ : Shape).Idx → EReal :=
  affine (relu (affine (relu (affine (relu (affine x w1 b1)) w2 b2)) w3 b3)) w4 b4

end Cert.Mlp

end
-- ==== Proof.Layer0.lean ====
/-
  Layer 1 of the network as the kernel program computes it.  The region's grid walks the batch in blocks of 512
  rows; at each point the body multiplies the block of activations by the transpose of the whole weight matrix
  (a sum over the 1024 shared coordinates), adds the bias row, rectifies and stores the block of 512 × 4096 results.
  Entry `(p, q)` of the block at row block `t` is entry `(t · 512 + p, q)` of the whole-array function
  `relu (affine x w b)`; the row blocks tile the output array, so after the region the array is that function of the
  region's three input arrays, whatever they hold.
-/
import proofs.«181596_j89962384982886_2_alg».proof.Proof.Gen.KernelIdeal.Frame
import proofs.«181596_j89962384982886_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer0
open Idealize.ShloMosaic Idealize.ShloMosaic.TcCoe Idealize.SL.Sem Idealize.ShloMosaic.ValueIdx
open Cert.KernelIdeal Cert.KernelIdeal.Gen Cert.Mlp

theorem lhs_0 (i : S512x4096.Idx) (q : dot_S512x1024_S4096x1024_S512x4096_1_1_0_0_n_n.contr.Idx) : (dot_S512x1024_S4096x1024_S512x4096_1_1_0_0_n_n.lhsIdx i q 0).val = (i 0).val := by
  unfold DotDims.lhsIdx
  rw [dif_neg (show ¬(0 : Fin S512x1024.rank) ∈ dot_S512x1024_S4096x1024_S512x4096_1_1_0_0_n_n.lhsBatch by decide), dif_pos (show (0 : Fin S512x1024.rank) ∈ dot_S512x1024_S4096x1024_S512x4096_1_1_0_0_n_n.lhsNonContracting by decide)]
  rfl
theorem lhs_1 (i : S512x4096.Idx) (q : dot_S512x1024_S4096x1024_S512x4096_1_1_0_0_n_n.contr.Idx) : (dot_S512x1024_S4096x1024_S512x4096_1_1_0_0_n_n.lhsIdx i q 1).val = (q ⟨0, by decide⟩).val :=
  dot_S512x1024_S4096x1024_S512x4096_1_1_0_0_n_n.lhsIdx_val_of_single rfl i q
theorem rhs_0 (i : S512x4096.Idx) (q : dot_S512x1024_S4096x1024_S512x4096_1_1_0_0_n_n.contr.Idx) : (dot_S512x1024_S4096x1024_S512x4096_1_1_0_0_n_n.rhsIdx i q 0).val = (i 1).val := by
  unfold DotDims.rhsIdx
  rw [dif_neg (show ¬(0 : Fin S4096x1024.rank) ∈ dot_S512x1024_S4096x1024_S512x4096_1_1_0_0_n_n.rhsBatch by decide), dif_pos (show (0 : Fin S4096x1024.rank) ∈ dot_S512x1024_S4096x1024_S512x4096_1_1_0_0_n_n.rhsNonContracting by decide)]
  rfl
theorem rhs_1 (i : S512x4096.Idx) (q : dot_S512x1024_S4096x1024_S512x4096_1_1_0_0_n_n.contr.Idx) : (dot_S512x1024_S4096x1024_S512x4096_1_1_0_0_n_n.rhsIdx i q 1).val = (q ⟨0, by decide⟩).val :=
  dot_S512x1024_S4096x1024_S512x4096_1_1_0_0_n_n.rhsIdx_val_of_single rfl i q

/-- The product `x · wᵀ` of a block of 512 rows with the whole weight matrix, read at `(p, q)`: the sum over the shared
    axis of row `p` of the block times row `q` of the weights (the accumulator is zero). -/
theorem matmul_at (x0 : FVec Ideal S512x1024 .bf16) (x1 : FVec Ideal S4096x1024 .bf16) (p : Fin 512) (q : Fin 4096) :
    matmul (F := Ideal) dot_S512x1024_S4096x1024_S512x4096_1_1_0_0_n_n none x0 x1 (constant S512x4096 .f32 0x00000000#32) (ix2 p q)
      = ∑ k : Fin 1024, x0 (ix2 p k) * x1 (ix2 q k) := by
  simp only [matmul]
  rw [Ideal.matmul_constant_zero_apply, ← Equiv.sum_comp (contrEquiv1 dot_S512x1024_S4096x1024_S512x4096_1_1_0_0_n_n 1024 rfl rfl).symm]
  refine Finset.sum_congr rfl fun k _ => ?_
  have hk := contrEquiv1_symm_val dot_S512x1024_S4096x1024_S512x4096_1_1_0_0_n_n 1024 rfl rfl k
  have el : dot_S512x1024_S4096x1024_S512x4096_1_1_0_0_n_n.lhsIdx (ix2 p q) ((contrEquiv1 dot_S512x1024_S4096x1024_S512x4096_1_1_0_0_n_n 1024 rfl rfl).symm k) = ix2 p k := funext fun a => Fin.ext (by
    match a with
    | ⟨0, _⟩ => exact lhs_0 _ _
    | ⟨1, _⟩ => exact (lhs_1 _ _).trans hk)
  have er : dot_S512x1024_S4096x1024_S512x4096_1_1_0_0_n_n.rhsIdx (ix2 p q) ((contrEquiv1 dot_S512x1024_S4096x1024_S512x4096_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-- What the body stores, entry by entry: the rectified affine map of the block's rows. -/
theorem pay_at (x0 : Vec Ideal S512x1024 .bf16) (x1 : Vec Ideal S4096x1024 .bf16) (x2 : Vec Ideal S1x4096 .f32)
    (p : Fin 512) (q : Fin 4096) :
    k0_pay1 (F := Ideal) x0 x1 x2 (ix2 p q) = max ((∑ k : Fin 1024, x0 (ix2 p k) * x1 (ix2 q k)) + x2 (ix2 0 q)) 0 := by
  unfold k0_pay1
  simp only [shapeCast_self]
  show max (matmul (F := Ideal) dot_S512x1024_S4096x1024_S512x4096_1_1_0_0_n_n none x0 x1 (constant S512x4096 .f32 0x00000000#32) (ix2 p q)
      + broadcastTo S512x4096 x2 broadcasts_S1x4096_S512x4096 (ix2 p q)) (Ideal.ofBits .f32 0x00000000#32) = _
  rw [matmul_at, broadcastTo_1b_ab_apply, Ideal.ofBits_zero_f32]

/-- One stored entry against the whole-array function: when the block's row `p` is the array's row `r`, the weights and
    the bias row are read whole, the entry `(p, q)` of the block is the entry `(r, q)` of the layer. -/
theorem point_eq (X : S4096x1024.Idx → EReal) (Wm : S4096x1024.Idx → EReal) (B : S1x4096.Idx → EReal)
    (x0 : Vec Ideal S512x1024 .bf16) (x1 : Vec Ideal S4096x1024 .bf16) (x2 : Vec Ideal S1x4096 .f32)
    (i : S4096x4096.Idx) (p : Fin 512) (q : Fin 4096) (r : Fin 4096)
    (hi : i = ix2 r q)
    (h0 : ∀ k : Fin 1024, x0 (ix2 p k) = X (ix2 r k)) (h1 : ∀ (n : Fin 4096) (k : Fin 1024), x1 (ix2 n k) = Wm (ix2 n k))
    (h2 : ∀ n : Fin 4096, x2 (ix2 0 n) = B (ix2 0 n)) :
    k0_pay1 (F := Ideal) x0 x1 x2 (ix2 p q) = relu (affine X Wm (rowOf B)) i := by
  subst hi
  rw [pay_at, relu_apply, affine_apply, rowOf_apply]
  simp only [h0, h1, h2]

theorem hz : (![0, 0] : Fin 2 → Nat) = fun _ => 0 := funext fun a => by fin_cases a <;> rfl

/-- The printed index maps, decided over the grid: the activations' block and the output's block move together along
    the rows and sit at column block 0; the weights and the bias row are one block each. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every row block is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

variable (V : (c : Dev nD) → (b : Ref sig .tc) → Buf (Elt Ideal) ((c : Thread nD τ).loc b))

/-- What point `t` writes back is block `t` of the layer's function of the arrays as the region finds them. -/
theorem flushed_eq (c : Dev nD) (t : Fin cfg0.N) :
    (dat0 (F := Ideal) V c).flushed 3 t
      = ((cfg0.win 3).blk t).view.read (Elt Ideal) (relu (affine (V c main_v0) (V c main_v1) (rowOf (V c main_v5)))) := by
  show (cfg0.win 3).cut (grid0.coords t) ((dat0 (F := Ideal) V c).after 3 t) = _
  rw [after0_3]
  unfold out0_3
  rw [View.canon_unit_zero hz]
  simp only [View.ld_unit_zero (S := S512x1024) hz, View.ld_unit_zero (S := S4096x1024) hz, View.ld_unit_zero (S := S1x4096) hz]
  obtain ⟨e0, e1, e2, e3, e4, e5, e6, e7⟩ := idx_facts t
  funext j
  obtain ⟨p, q, rfl⟩ : ∃ (p : Fin 512) (q : Fin 4096), j = ix2 p q := ⟨j 0, j 1, eq_ix2 j⟩
  have hp : p.val < 512 := p.isLt
  refine point_eq (V c main_v0) (V c main_v1) (V c main_v5) (iblk0 V c 0 t) (iblk0 V c 1 t) (iblk0 V c 2 t)
    (((cfg0.win 3).blk t).view.emb (ix2 p q)) p q ⟨win0_3.index t (0 : Fin 2) * 512 + p.val, by omega⟩ ?_ ?_ ?_ ?_
  · funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 4096 + 1 * q.val = q.val; omega
  · intro k
    show V c main_v0 (((cfg0.win 0).blk t).view.emb (ix2 p k)) = V c main_v0 (ix2 ⟨win0_3.index t (0 : Fin 2) * 512 + p.val, by omega⟩ k)
    refine congrArg (V c main_v0) (funext fun a => Fin.ext ?_)
    match a with
    | ⟨0, _⟩ => show win0_0.index t (0 : Fin 2) * 512 + 1 * p.val = win0_3.index t (0 : Fin 2) * 512 + p.val; omega
    | ⟨1, _⟩ => show win0_0.index t (1 : Fin 2) * 1024 + 1 * k.val = k.val; omega
  · intro n k
    show V c main_v1 (((cfg0.win 1).blk t).view.emb (ix2 n k)) = V c main_v1 (ix2 n k)
    refine congrArg (V c main_v1) (funext fun a => Fin.ext ?_)
    match a with
    | ⟨0, _⟩ => show win0_1.index t (0 : Fin 2) * 4096 + 1 * n.val = n.val; omega
    | ⟨1, _⟩ => show win0_1.index t (1 : Fin 2) * 1024 + 1 * k.val = k.val; omega
  · intro n
    show V c main_v5 (((cfg0.win 2).blk t).view.emb (ix2 0 n)) = V c main_v5 (ix2 0 n)
    refine congrArg (V c main_v5) (funext fun a => Fin.ext ?_)
    match a with
    | ⟨0, _⟩ => show win0_2.index t (0 : Fin 2) * 1 + 1 * 0 = 0; omega
    | ⟨1, _⟩ => show win0_2.index t (1 : Fin 2) * 4096 + 1 * n.val = n.val; omega

/-- An index of the output array is in point `t`'s block iff each coordinate is in the block's range on its axis. -/
theorem mem_blk (t : Fin cfg0.N) (i : S4096x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v6).slice (win0_3.rect t)).set ↔ _
  rw [View.set_slice_whole, Rect.mem_set_unit]
  exact Iff.rfl

/-- The row blocks tile the output: row `r` is in the block of the point `r / 512`. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- The output array after the region: the layer's function of the region's input arrays. -/
theorem layer (c : Dev nD) : (dat0 (F := Ideal) V c).arrAt 3 cfg0.N
    = relu (affine (V c main_v0) (V c main_v1) (rowOf (V c main_v5))) :=
  (dat0 (F := Ideal) V c).arrAt_eq_of_cover 3 _ (fun t _ => flushed_eq V c t) cover

end Cert.KernelIdeal.Layer0
end
-- ==== Proof.Layer1.lean ====
/-
  Layer 2 of the network as the kernel program computes it.  The region's grid walks the batch in blocks of 128
  rows; at each point the body multiplies the block of activations by the transpose of the whole weight matrix
  (a sum over the 4096 shared coordinates), adds the bias row, rectifies and stores the block of 128 × 4096 results.
  Entry `(p, q)` of the block at row block `t` is entry `(t · 128 + p, q)` of the whole-array function
  `relu (affine x w b)`; the row blocks tile the output array, so after the region the array is that function of the
  region's three input arrays, whatever they hold.
-/
import proofs.«181596_j89962384982886_2_alg».proof.Proof.Gen.KernelIdeal.Frame
import proofs.«181596_j89962384982886_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer1
open Idealize.ShloMosaic Idealize.ShloMosaic.TcCoe Idealize.SL.Sem Idealize.ShloMosaic.ValueIdx
open Cert.KernelIdeal Cert.KernelIdeal.Gen Cert.Mlp

theorem lhs_0 (i : S128x4096.Idx) (q : dot_S128x4096_S4096x4096_S128x4096_1_1_0_0_n_n.contr.Idx) : (dot_S128x4096_S4096x4096_S128x4096_1_1_0_0_n_n.lhsIdx i q 0).val = (i 0).val := by
  unfold DotDims.lhsIdx
  rw [dif_neg (show ¬(0 : Fin S128x4096.rank) ∈ dot_S128x4096_S4096x4096_S128x4096_1_1_0_0_n_n.lhsBatch by decide), dif_pos (show (0 : Fin S128x4096.rank) ∈ dot_S128x4096_S4096x4096_S128x4096_1_1_0_0_n_n.lhsNonContracting by decide)]
  rfl
theorem lhs_1 (i : S128x4096.Idx) (q : dot_S128x4096_S4096x4096_S128x4096_1_1_0_0_n_n.contr.Idx) : (dot_S128x4096_S4096x4096_S128x4096_1_1_0_0_n_n.lhsIdx i q 1).val = (q ⟨0, by decide⟩).val :=
  dot_S128x4096_S4096x4096_S128x4096_1_1_0_0_n_n.lhsIdx_val_of_single rfl i q
theorem rhs_0 (i : S128x4096.Idx) (q : dot_S128x4096_S4096x4096_S128x4096_1_1_0_0_n_n.contr.Idx) : (dot_S128x4096_S4096x4096_S128x4096_1_1_0_0_n_n.rhsIdx i q 0).val = (i 1).val := by
  unfold DotDims.rhsIdx
  rw [dif_neg (show ¬(0 : Fin S4096x4096.rank) ∈ dot_S128x4096_S4096x4096_S128x4096_1_1_0_0_n_n.rhsBatch by decide), dif_pos (show (0 : Fin S4096x4096.rank) ∈ dot_S128x4096_S4096x4096_S128x4096_1_1_0_0_n_n.rhsNonContracting by decide)]
  rfl
theorem rhs_1 (i : S128x4096.Idx) (q : dot_S128x4096_S4096x4096_S128x4096_1_1_0_0_n_n.contr.Idx) : (dot_S128x4096_S4096x4096_S128x4096_1_1_0_0_n_n.rhsIdx i q 1).val = (q ⟨0, by decide⟩).val :=
  dot_S128x4096_S4096x4096_S128x4096_1_1_0_0_n_n.rhsIdx_val_of_single rfl i q

/-- The product `x · wᵀ` of a block of 128 rows with the whole weight matrix, read at `(p, q)`: the sum over the shared
    axis of row `p` of the block times row `q` of the weights (the accumulator is zero). -/
theorem matmul_at (x0 : FVec Ideal S128x4096 .bf16) (x1 : FVec Ideal S4096x4096 .bf16) (p : Fin 128) (q : Fin 4096) :
    matmul (F := Ideal) dot_S128x4096_S4096x4096_S128x4096_1_1_0_0_n_n none x0 x1 (constant S128x4096 .f32 0x00000000#32) (ix2 p q)
      = ∑ k : Fin 4096, x0 (ix2 p k) * x1 (ix2 q k) := by
  simp only [matmul]
  rw [Ideal.matmul_constant_zero_apply, ← Equiv.sum_comp (contrEquiv1 dot_S128x4096_S4096x4096_S128x4096_1_1_0_0_n_n 4096 rfl rfl).symm]
  refine Finset.sum_congr rfl fun k _ => ?_
  have hk := contrEquiv1_symm_val dot_S128x4096_S4096x4096_S128x4096_1_1_0_0_n_n 4096 rfl rfl k
  have el : dot_S128x4096_S4096x4096_S128x4096_1_1_0_0_n_n.lhsIdx (ix2 p q) ((contrEquiv1 dot_S128x4096_S4096x4096_S128x4096_1_1_0_0_n_n 4096 rfl rfl).symm k) = ix2 p k := funext fun a => Fin.ext (by
    match a with
    | ⟨0, _⟩ => exact lhs_0 _ _
    | ⟨1, _⟩ => exact (lhs_1 _ _).trans hk)
  have er : dot_S128x4096_S4096x4096_S128x4096_1_1_0_0_n_n.rhsIdx (ix2 p q) ((contrEquiv1 dot_S128x4096_S4096x4096_S128x4096_1_1_0_0_n_n 4096 rfl rfl).symm k) = ix2 q k := funext fun a => Fin.ext (by
    match a with
    | ⟨0, _⟩ => exact rhs_0 _ _
    | ⟨1, _⟩ => exact (rhs_1 _ _).trans hk)
  rw [el, er]

/-- What the body stores, entry by entry: the rectified affine map of the block's rows. -/
theorem pay_at (x0 : Vec Ideal S128x4096 .bf16) (x1 : Vec Ideal S4096x4096 .bf16) (x2 : Vec Ideal S1x4096 .f32)
    (p : Fin 128) (q : Fin 4096) :
    k1_pay1 (F := Ideal) x0 x1 x2 (ix2 p q) = max ((∑ k : Fin 4096, x0 (ix2 p k) * x1 (ix2 q k)) + x2 (ix2 0 q)) 0 := by
  unfold k1_pay1
  simp only [shapeCast_self]
  show max (matmul (F := Ideal) dot_S128x4096_S4096x4096_S128x4096_1_1_0_0_n_n none x0 x1 (constant S128x4096 .f32 0x00000000#32) (ix2 p q)
      + broadcastTo S128x4096 x2 broadcasts_S1x4096_S128x4096 (ix2 p q)) (Ideal.ofBits .f32 0x00000000#32) = _
  rw [matmul_at, broadcastTo_1b_ab_apply, Ideal.ofBits_zero_f32]

/-- One stored entry against the whole-array function: when the block's row `p` is the array's row `r`, the weights and
    the bias row are read whole, the entry `(p, q)` of the block is the entry `(r, q)` of the layer. -/
theorem point_eq (X : S4096x4096.Idx → EReal) (Wm : S4096x4096.Idx → EReal) (B : S1x4096.Idx → EReal)
    (x0 : Vec Ideal S128x4096 .bf16) (x1 : Vec Ideal S4096x4096 .bf16) (x2 : Vec Ideal S1x4096 .f32)
    (i : S4096x4096.Idx) (p : Fin 128) (q : Fin 4096) (r : Fin 4096)
    (hi : i = ix2 r q)
    (h0 : ∀ k : Fin 4096, x0 (ix2 p k) = X (ix2 r k)) (h1 : ∀ (n : Fin 4096) (k : Fin 4096), x1 (ix2 n k) = Wm (ix2 n k))
    (h2 : ∀ n : Fin 4096, x2 (ix2 0 n) = B (ix2 0 n)) :
    k1_pay1 (F := Ideal) x0 x1 x2 (ix2 p q) = relu (affine X Wm (rowOf B)) i := by
  subst hi
  rw [pay_at, relu_apply, affine_apply, rowOf_apply]
  simp only [h0, h1, h2]

theorem hz : (![0, 0] : Fin 2 → Nat) = fun _ => 0 := funext fun a => by fin_cases a <;> rfl

/-- The printed index maps, decided over the grid: the activations' block and the output's block move together along
    the rows and sit at column block 0; the weights and the bias row are one block each. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 31 :=
  (by decide +kernel : ∀ t : Fin grid1.N, _)

/-- Every row block is some point's. -/
theorem idx_onto : ∀ q0 : Fin 32, ∃ t : Fin cfg1.N, win1_3.index t = ![q0.val, 0] :=
  (by decide +kernel : ∀ q0 : Fin 32, ∃ t : Fin grid1.N, win1_3.index t = ![q0.val, 0])

variable (V : (c : Dev nD) → (b : Ref sig .tc) → Buf (Elt Ideal) ((c : Thread nD τ).loc b))

/-- What point `t` writes back is block `t` of the layer's function of the arrays as the region finds them. -/
theorem flushed_eq (c : Dev nD) (t : Fin cfg1.N) :
    (dat1 (F := Ideal) V c).flushed 3 t
      = ((cfg1.win 3).blk t).view.read (Elt Ideal) (relu (affine (V c main_v6) (V c main_v2) (rowOf (V c main_v7)))) := by
  show (cfg1.win 3).cut (grid1.coords t) ((dat1 (F := Ideal) V c).after 3 t) = _
  rw [after1_3]
  unfold out1_3
  rw [View.canon_unit_zero hz]
  simp only [View.ld_unit_zero (S := S128x4096) hz, View.ld_unit_zero (S := S4096x4096) hz, View.ld_unit_zero (S := S1x4096) hz]
  obtain ⟨e0, e1, e2, e3, e4, e5, e6, e7⟩ := idx_facts t
  funext j
  obtain ⟨p, q, rfl⟩ : ∃ (p : Fin 128) (q : Fin 4096), j = ix2 p q := ⟨j 0, j 1, eq_ix2 j⟩
  have hp : p.val < 128 := p.isLt
  refine point_eq (V c main_v6) (V c main_v2) (V c main_v7) (iblk1 V c 0 t) (iblk1 V c 1 t) (iblk1 V c 2 t)
    (((cfg1.win 3).blk t).view.emb (ix2 p q)) p q ⟨win1_3.index t (0 : Fin 2) * 128 + p.val, by omega⟩ ?_ ?_ ?_ ?_
  · funext a; apply Fin.ext
    match a with
    | ⟨0, _⟩ => show win1_3.index t (0 : Fin 2) * 128 + 1 * p.val = win1_3.index t (0 : Fin 2) * 128 + p.val; omega
    | ⟨1, _⟩ => show win1_3.index t (1 : Fin 2) * 4096 + 1 * q.val = q.val; omega
  · intro k
    show V c main_v6 (((cfg1.win 0).blk t).view.emb (ix2 p k)) = V c main_v6 (ix2 ⟨win1_3.index t (0 : Fin 2) * 128 + p.val, by omega⟩ k)
    refine congrArg (V c main_v6) (funext fun a => Fin.ext ?_)
    match a with
    | ⟨0, _⟩ => show win1_0.index t (0 : Fin 2) * 128 + 1 * p.val = win1_3.index t (0 : Fin 2) * 128 + p.val; omega
    | ⟨1, _⟩ => show win1_0.index t (1 : Fin 2) * 4096 + 1 * k.val = k.val; omega
  · intro n k
    show V c main_v2 (((cfg1.win 1).blk t).view.emb (ix2 n k)) = V c main_v2 (ix2 n k)
    refine congrArg (V c main_v2) (funext fun a => Fin.ext ?_)
    match a with
    | ⟨0, _⟩ => show win1_1.index t (0 : Fin 2) * 4096 + 1 * n.val = n.val; omega
    | ⟨1, _⟩ => show win1_1.index t (1 : Fin 2) * 4096 + 1 * k.val = k.val; omega
  · intro n
    show V c main_v7 (((cfg1.win 2).blk t).view.emb (ix2 0 n)) = V c main_v7 (ix2 0 n)
    refine congrArg (V c main_v7) (funext fun a => Fin.ext ?_)
    match a with
    | ⟨0, _⟩ => show win1_2.index t (0 : Fin 2) * 1 + 1 * 0 = 0; omega
    | ⟨1, _⟩ => show win1_2.index t (1 : Fin 2) * 4096 + 1 * n.val = n.val; omega

/-- An index of the output array is in point `t`'s block iff each coordinate is in the block's range on its axis. -/
theorem mem_blk (t : Fin cfg1.N) (i : S4096x4096.Idx) :
    i ∈ ((cfg1.win 3).blk t).view.set ↔ ∀ a : Fin 2, win1_3.index t a * S128x4096.size a ≤ (i a).val ∧ (i a).val < win1_3.index t a * S128x4096.size a + S128x4096.size a := by
  show i ∈ ((View.whole main_v8).slice (win1_3.rect t)).set ↔ _
  rw [View.set_slice_whole, Rect.mem_set_unit]
  exact Iff.rfl

/-- The row blocks tile the output: row `r` is in the block of the point `r / 128`. -/
theorem cover (i : S4096x4096.Idx) : ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht⟩ := idx_onto ⟨(i 0).val / 128, by omega⟩
  have q0 : win1_3.index t (0 : Fin 2) = (i 0).val / 128 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 4096 ≤ (i 1).val ∧ (i 1).val < win1_3.index t (1 : Fin 2) * 4096 + 4096; omega

/-- The output array after the region: the layer's function of the region's input arrays. -/
theorem layer (c : Dev nD) : (dat1 (F := Ideal) V c).arrAt 3 cfg1.N
    = relu (affine (V c main_v6) (V c main_v2) (rowOf (V c main_v7))) :=
  (dat1 (F := Ideal) V c).arrAt_eq_of_cover 3 _ (fun t _ => flushed_eq V c t) cover

end Cert.KernelIdeal.Layer1
end
-- ==== Proof.Layer2.lean ====
/-
  Layer 3 of the network as the kernel program computes it.  The region's grid walks the batch in blocks of 128
  rows; at each point the body multiplies the block of activations by the transpose of the whole weight matrix
  (a sum over the 4096 shared coordinates), adds the bias row, rectifies and stores the block of 128 × 4096 results.
  Entry `(p, q)` of the block at row block `t` is entry `(t · 128 + p, q)` of the whole-array function
  `relu (affine x w b)`; the row blocks tile the output array, so after the region the array is that function of the
  region's three input arrays, whatever they hold.
-/
import proofs.«181596_j89962384982886_2_alg».proof.Proof.Gen.KernelIdeal.Frame
import proofs.«181596_j89962384982886_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer2
open Idealize.ShloMosaic Idealize.ShloMosaic.TcCoe Idealize.SL.Sem Idealize.ShloMosaic.ValueIdx
open Cert.KernelIdeal Cert.KernelIdeal.Gen Cert.Mlp

theorem lhs_0 (i : S128x4096.Idx) (q : dot_S128x4096_S4096x4096_S128x4096_1_1_0_0_n_n.contr.Idx) : (dot_S128x4096_S4096x4096_S128x4096_1_1_0_0_n_n.lhsIdx i q 0).val = (i 0).val := by
  unfold DotDims.lhsIdx
  rw [dif_neg (show ¬(0 : Fin S128x4096.rank) ∈ dot_S128x4096_S4096x4096_S128x4096_1_1_0_0_n_n.lhsBatch by decide), dif_pos (show (0 : Fin S128x4096.rank) ∈ dot_S128x4096_S4096x4096_S128x4096_1_1_0_0_n_n.lhsNonContracting by decide)]
  rfl
theorem lhs_1 (i : S128x4096.Idx) (q : dot_S128x4096_S4096x4096_S128x4096_1_1_0_0_n_n.contr.Idx) : (dot_S128x4096_S4096x4096_S128x4096_1_1_0_0_n_n.lhsIdx i q 1).val = (q ⟨0, by decide⟩).val :=
  dot_S128x4096_S4096x4096_S128x4096_1_1_0_0_n_n.lhsIdx_val_of_single rfl i q
theorem rhs_0 (i : S128x4096.Idx) (q : dot_S128x4096_S4096x4096_S128x4096_1_1_0_0_n_n.contr.Idx) : (dot_S128x4096_S4096x4096_S128x4096_1_1_0_0_n_n.rhsIdx i q 0).val = (i 1).val := by
  unfold DotDims.rhsIdx
  rw [dif_neg (show ¬(0 : Fin S4096x4096.rank) ∈ dot_S128x4096_S4096x4096_S128x4096_1_1_0_0_n_n.rhsBatch by decide), dif_pos (show (0 : Fin S4096x4096.rank) ∈ dot_S128x4096_S4096x4096_S128x4096_1_1_0_0_n_n.rhsNonContracting by decide)]
  rfl
theorem rhs_1 (i : S128x4096.Idx) (q : dot_S128x4096_S4096x4096_S128x4096_1_1_0_0_n_n.contr.Idx) : (dot_S128x4096_S4096x4096_S128x4096_1_1_0_0_n_n.rhsIdx i q 1).val = (q ⟨0, by decide⟩).val :=
  dot_S128x4096_S4096x4096_S128x4096_1_1_0_0_n_n.rhsIdx_val_of_single rfl i q

/-- The product `x · wᵀ` of a block of 128 rows with the whole weight matrix, read at `(p, q)`: the sum over the shared
    axis of row `p` of the block times row `q` of the weights (the accumulator is zero). -/
theorem matmul_at (x0 : FVec Ideal S128x4096 .bf16) (x1 : FVec Ideal S4096x4096 .bf16) (p : Fin 128) (q : Fin 4096) :
    matmul (F := Ideal) dot_S128x4096_S4096x4096_S128x4096_1_1_0_0_n_n none x0 x1 (constant S128x4096 .f32 0x00000000#32) (ix2 p q)
      = ∑ k : Fin 4096, x0 (ix2 p k) * x1 (ix2 q k) := by
  simp only [matmul]
  rw [Ideal.matmul_constant_zero_apply, ← Equiv.sum_comp (contrEquiv1 dot_S128x4096_S4096x4096_S128x4096_1_1_0_0_n_n 4096 rfl rfl).symm]
  refine Finset.sum_congr rfl fun k _ => ?_
  have hk := contrEquiv1_symm_val dot_S128x4096_S4096x4096_S128x4096_1_1_0_0_n_n 4096 rfl rfl k
  have el : dot_S128x4096_S4096x4096_S128x4096_1_1_0_0_n_n.lhsIdx (ix2 p q) ((contrEquiv1 dot_S128x4096_S4096x4096_S128x4096_1_1_0_0_n_n 4096 rfl rfl).symm k) = ix2 p k := funext fun a => Fin.ext (by
    match a with
    | ⟨0, _⟩ => exact lhs_0 _ _
    | ⟨1, _⟩ => exact (lhs_1 _ _).trans hk)
  have er : dot_S128x4096_S4096x4096_S128x4096_1_1_0_0_n_n.rhsIdx (ix2 p q) ((contrEquiv1 dot_S128x4096_S4096x4096_S128x4096_1_1_0_0_n_n 4096 rfl rfl).symm k) = ix2 q k := funext fun a => Fin.ext (by
    match a with
    | ⟨0, _⟩ => exact rhs_0 _ _
    | ⟨1, _⟩ => exact (rhs_1 _ _).trans hk)
  rw [el, er]

/-- What the body stores, entry by entry: the rectified affine map of the block's rows. -/
theorem pay_at (x0 : Vec Ideal S128x4096 .bf16) (x1 : Vec Ideal S4096x4096 .bf16) (x2 : Vec Ideal S1x4096 .f32)
    (p : Fin 128) (q : Fin 4096) :
    k2_pay1 (F := Ideal) x0 x1 x2 (ix2 p q) = max ((∑ k : Fin 4096, x0 (ix2 p k) * x1 (ix2 q k)) + x2 (ix2 0 q)) 0 := by
  unfold k2_pay1
  simp only [shapeCast_self]
  show max (matmul (F := Ideal) dot_S128x4096_S4096x4096_S128x4096_1_1_0_0_n_n none x0 x1 (constant S128x4096 .f32 0x00000000#32) (ix2 p q)
      + broadcastTo S128x4096 x2 broadcasts_S1x4096_S128x4096 (ix2 p q)) (Ideal.ofBits .f32 0x00000000#32) = _
  rw [matmul_at, broadcastTo_1b_ab_apply, Ideal.ofBits_zero_f32]

/-- One stored entry against the whole-array function: when the block's row `p` is the array's row `r`, the weights and
    the bias row are read whole, the entry `(p, q)` of the block is the entry `(r, q)` of the layer. -/
theorem point_eq (X : S4096x4096.Idx → EReal) (Wm : S4096x4096.Idx → EReal) (B : S1x4096.Idx → EReal)
    (x0 : Vec Ideal S128x4096 .bf16) (x1 : Vec Ideal S4096x4096 .bf16) (x2 : Vec Ideal S1x4096 .f32)
    (i : S4096x4096.Idx) (p : Fin 128) (q : Fin 4096) (r : Fin 4096)
    (hi : i = ix2 r q)
    (h0 : ∀ k : Fin 4096, x0 (ix2 p k) = X (ix2 r k)) (h1 : ∀ (n : Fin 4096) (k : Fin 4096), x1 (ix2 n k) = Wm (ix2 n k))
    (h2 : ∀ n : Fin 4096, x2 (ix2 0 n) = B (ix2 0 n)) :
    k2_pay1 (F := Ideal) x0 x1 x2 (ix2 p q) = relu (affine X Wm (rowOf B)) i := by
  subst hi
  rw [pay_at, relu_apply, affine_apply, rowOf_apply]
  simp only [h0, h1, h2]

theorem hz : (![0, 0] : Fin 2 → Nat) = fun _ => 0 := funext fun a => by fin_cases a <;> rfl

/-- The printed index maps, decided over the grid: the activations' block and the output's block move together along
    the rows and sit at column block 0; the weights and the bias row are one block each. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 31 :=
  (by decide +kernel : ∀ t : Fin grid2.N, _)

/-- Every row block is some point's. -/
theorem idx_onto : ∀ q0 : Fin 32, ∃ t : Fin cfg2.N, win2_3.index t = ![q0.val, 0] :=
  (by decide +kernel : ∀ q0 : Fin 32, ∃ t : Fin grid2.N, win2_3.index t = ![q0.val, 0])

variable (V : (c : Dev nD) → (b : Ref sig .tc) → Buf (Elt Ideal) ((c : Thread nD τ).loc b))

/-- What point `t` writes back is block `t` of the layer's function of the arrays as the region finds them. -/
theorem flushed_eq (c : Dev nD) (t : Fin cfg2.N) :
    (dat2 (F := Ideal) V c).flushed 3 t
      = ((cfg2.win 3).blk t).view.read (Elt Ideal) (relu (affine (V c main_v8) (V c main_v3) (rowOf (V c main_v9)))) := by
  show (cfg2.win 3).cut (grid2.coords t) ((dat2 (F := Ideal) V c).after 3 t) = _
  rw [after2_3]
  unfold out2_3
  rw [View.canon_unit_zero hz]
  simp only [View.ld_unit_zero (S := S128x4096) hz, View.ld_unit_zero (S := S4096x4096) hz, View.ld_unit_zero (S := S1x4096) hz]
  obtain ⟨e0, e1, e2, e3, e4, e5, e6, e7⟩ := idx_facts t
  funext j
  obtain ⟨p, q, rfl⟩ : ∃ (p : Fin 128) (q : Fin 4096), j = ix2 p q := ⟨j 0, j 1, eq_ix2 j⟩
  have hp : p.val < 128 := p.isLt
  refine point_eq (V c main_v8) (V c main_v3) (V c main_v9) (iblk2 V c 0 t) (iblk2 V c 1 t) (iblk2 V c 2 t)
    (((cfg2.win 3).blk t).view.emb (ix2 p q)) p q ⟨win2_3.index t (0 : Fin 2) * 128 + p.val, by omega⟩ ?_ ?_ ?_ ?_
  · funext a; apply Fin.ext
    match a with
    | ⟨0, _⟩ => show win2_3.index t (0 : Fin 2) * 128 + 1 * p.val = win2_3.index t (0 : Fin 2) * 128 + p.val; omega
    | ⟨1, _⟩ => show win2_3.index t (1 : Fin 2) * 4096 + 1 * q.val = q.val; omega
  · intro k
    show V c main_v8 (((cfg2.win 0).blk t).view.emb (ix2 p k)) = V c main_v8 (ix2 ⟨win2_3.index t (0 : Fin 2) * 128 + p.val, by omega⟩ k)
    refine congrArg (V c main_v8) (funext fun a => Fin.ext ?_)
    match a with
    | ⟨0, _⟩ => show win2_0.index t (0 : Fin 2) * 128 + 1 * p.val = win2_3.index t (0 : Fin 2) * 128 + p.val; omega
    | ⟨1, _⟩ => show win2_0.index t (1 : Fin 2) * 4096 + 1 * k.val = k.val; omega
  · intro n k
    show V c main_v3 (((cfg2.win 1).blk t).view.emb (ix2 n k)) = V c main_v3 (ix2 n k)
    refine congrArg (V c main_v3) (funext fun a => Fin.ext ?_)
    match a with
    | ⟨0, _⟩ => show win2_1.index t (0 : Fin 2) * 4096 + 1 * n.val = n.val; omega
    | ⟨1, _⟩ => show win2_1.index t (1 : Fin 2) * 4096 + 1 * k.val = k.val; omega
  · intro n
    show V c main_v9 (((cfg2.win 2).blk t).view.emb (ix2 0 n)) = V c main_v9 (ix2 0 n)
    refine congrArg (V c main_v9) (funext fun a => Fin.ext ?_)
    match a with
    | ⟨0, _⟩ => show win2_2.index t (0 : Fin 2) * 1 + 1 * 0 = 0; omega
    | ⟨1, _⟩ => show win2_2.index t (1 : Fin 2) * 4096 + 1 * n.val = n.val; omega

/-- An index of the output array is in point `t`'s block iff each coordinate is in the block's range on its axis. -/
theorem mem_blk (t : Fin cfg2.N) (i : S4096x4096.Idx) :
    i ∈ ((cfg2.win 3).blk t).view.set ↔ ∀ a : Fin 2, win2_3.index t a * S128x4096.size a ≤ (i a).val ∧ (i a).val < win2_3.index t a * S128x4096.size a + S128x4096.size a := by
  show i ∈ ((View.whole main_v10).slice (win2_3.rect t)).set ↔ _
  rw [View.set_slice_whole, Rect.mem_set_unit]
  exact Iff.rfl

/-- The row blocks tile the output: row `r` is in the block of the point `r / 128`. -/
theorem cover (i : S4096x4096.Idx) : ∃ t : Fin cfg2.N, (cfg2.win 3).flush t = true ∧ i ∈ ((cfg2.win 3).blk t).view.set := by
  have hi0 : (i 0).val < 4096 := (i 0).isLt
  have hi1 : (i 1).val < 4096 := (i 1).isLt
  obtain ⟨t, ht⟩ := idx_onto ⟨(i 0).val / 128, by omega⟩
  have q0 : win2_3.index t (0 : Fin 2) = (i 0).val / 128 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 128 ≤ (i 0).val ∧ (i 0).val < win2_3.index t (0 : Fin 2) * 128 + 128; omega
  | ⟨1, _⟩ => show win2_3.index t (1 : Fin 2) * 4096 ≤ (i 1).val ∧ (i 1).val < win2_3.index t (1 : Fin 2) * 4096 + 4096; omega

/-- The output array after the region: the layer's function of the region's input arrays. -/
theorem layer (c : Dev nD) : (dat2 (F := Ideal) V c).arrAt 3 cfg2.N
    = relu (affine (V c main_v8) (V c main_v3) (rowOf (V c main_v9))) :=
  (dat2 (F := Ideal) V c).arrAt_eq_of_cover 3 _ (fun t _ => flushed_eq V c t) cover

end Cert.KernelIdeal.Layer2
end
-- ==== Proof.Layer3.lean ====
/-
  Layer 4 of the network as the kernel program computes it.  The region's grid walks the batch in blocks of 512
  rows; at each point the body multiplies the block of activations by the transpose of the whole weight matrix
  (a sum over the 4096 shared coordinates), adds the bias row and stores the block of 512 × 1024 results.
  Entry `(p, q)` of the block at row block `t` is entry `(t · 512 + p, q)` of the whole-array function
  `affine x w b`; the row blocks tile the output array, so after the region the array is that function of the
  region's three input arrays, whatever they hold.
-/
import proofs.«181596_j89962384982886_2_alg».proof.Proof.Gen.KernelIdeal.Frame
import proofs.«181596_j89962384982886_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer3
open Idealize.ShloMosaic Idealize.ShloMosaic.TcCoe Idealize.SL.Sem Idealize.ShloMosaic.ValueIdx
open Cert.KernelIdeal Cert.KernelIdeal.Gen Cert.Mlp

theorem lhs_0 (i : S512x1024.Idx) (q : dot_S512x4096_S1024x4096_S512x1024_1_1_0_0_n_n.contr.Idx) : (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
theorem lhs_1 (i : S512x1024.Idx) (q : dot_S512x4096_S1024x4096_S512x1024_1_1_0_0_n_n.contr.Idx) : (dot_S512x4096_S1024x4096_S512x1024_1_1_0_0_n_n.lhsIdx i q 1).val = (q ⟨0, by decide⟩).val :=
  dot_S512x4096_S1024x4096_S512x1024_1_1_0_0_n_n.lhsIdx_val_of_single rfl i q
theorem rhs_0 (i : S512x1024.Idx) (q : dot_S512x4096_S1024x4096_S512x1024_1_1_0_0_n_n.contr.Idx) : (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
theorem rhs_1 (i : S512x1024.Idx) (q : dot_S512x4096_S1024x4096_S512x1024_1_1_0_0_n_n.contr.Idx) : (dot_S512x4096_S1024x4096_S512x1024_1_1_0_0_n_n.rhsIdx i q 1).val = (q ⟨0, by decide⟩).val :=
  dot_S512x4096_S1024x4096_S512x1024_1_1_0_0_n_n.rhsIdx_val_of_single rfl i q

/-- The product `x · wᵀ` of a block of 512 rows with the whole weight matrix, read at `(p, q)`: the sum over the shared
    axis of row `p` of the block times row `q` of the weights (the accumulator is zero). -/
theorem matmul_at (x0 : FVec Ideal S512x4096 .bf16) (x1 : FVec Ideal S1024x4096 .bf16) (p : Fin 512) (q : Fin 1024) :
    matmul (F := Ideal) dot_S512x4096_S1024x4096_S512x1024_1_1_0_0_n_n none x0 x1 (constant S512x1024 .f32 0x00000000#32) (ix2 p q)
      = ∑ k : Fin 4096, x0 (ix2 p k) * x1 (ix2 q k) := by
  simp only [matmul]
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p q) ((contrEquiv1 dot_S512x4096_S1024x4096_S512x1024_1_1_0_0_n_n 4096 rfl rfl).symm k) = ix2 p k := funext fun a => Fin.ext (by
    match a with
    | ⟨0, _⟩ => exact lhs_0 _ _
    | ⟨1, _⟩ => exact (lhs_1 _ _).trans hk)
  have er : dot_S512x4096_S1024x4096_S512x1024_1_1_0_0_n_n.rhsIdx (ix2 p q) ((contrEquiv1 dot_S512x4096_S1024x4096_S512x1024_1_1_0_0_n_n 4096 rfl rfl).symm k) = ix2 q k := funext fun a => Fin.ext (by
    match a with
    | ⟨0, _⟩ => exact rhs_0 _ _
    | ⟨1, _⟩ => exact (rhs_1 _ _).trans hk)
  rw [el, er]

/-- What the body stores, entry by entry: the affine map of the block's rows. -/
theorem pay_at (x0 : Vec Ideal S512x4096 .bf16) (x1 : Vec Ideal S1024x4096 .bf16) (x2 : Vec Ideal S1x1024 .f32)
    (p : Fin 512) (q : Fin 1024) :
    k3_pay1 (F := Ideal) x0 x1 x2 (ix2 p q) = (∑ k : Fin 4096, x0 (ix2 p k) * x1 (ix2 q k)) + x2 (ix2 0 q) := by
  unfold k3_pay1
  simp only [shapeCast_self]
  show matmul (F := Ideal) dot_S512x4096_S1024x4096_S512x1024_1_1_0_0_n_n none x0 x1 (constant S512x1024 .f32 0x00000000#32) (ix2 p q)
      + broadcastTo S512x1024 x2 broadcasts_S1x1024_S512x1024 (ix2 p q) = _
  rw [matmul_at, broadcastTo_1b_ab_apply]

/-- One stored entry against the whole-array function: when the block's row `p` is the array's row `r`, the weights and
    the bias row are read whole, the entry `(p, q)` of the block is the entry `(r, q)` of the layer. -/
theorem point_eq (X : S4096x4096.Idx → EReal) (Wm : S1024x4096.Idx → EReal) (B : S1x1024.Idx → EReal)
    (x0 : Vec Ideal S512x4096 .bf16) (x1 : Vec Ideal S1024x4096 .bf16) (x2 : Vec Ideal S1x1024 .f32)
    (i : S4096x1024.Idx) (p : Fin 512) (q : Fin 1024) (r : Fin 4096)
    (hi : i = ix2 r q)
    (h0 : ∀ k : Fin 4096, x0 (ix2 p k) = X (ix2 r k)) (h1 : ∀ (n : Fin 1024) (k : Fin 4096), x1 (ix2 n k) = Wm (ix2 n k))
    (h2 : ∀ n : Fin 1024, x2 (ix2 0 n) = B (ix2 0 n)) :
    k3_pay1 (F := Ideal) x0 x1 x2 (ix2 p q) = affine X Wm (rowOf B) i := by
  subst hi
  rw [pay_at, affine_apply, rowOf_apply]
  simp only [h0, h1, h2]

theorem hz : (![0, 0] : Fin 2 → Nat) = fun _ => 0 := funext fun a => by fin_cases a <;> rfl

/-- The printed index maps, decided over the grid: the activations' block and the output's block move together along
    the rows and sit at column block 0; the weights and the bias row are one block each. -/
theorem idx_facts : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 7 :=
  (by decide +kernel : ∀ t : Fin grid3.N, _)

/-- Every row block is some point's. -/
theorem idx_onto : ∀ q0 : Fin 8, ∃ t : Fin cfg3.N, win3_3.index t = ![q0.val, 0] :=
  (by decide +kernel : ∀ q0 : Fin 8, ∃ t : Fin grid3.N, win3_3.index t = ![q0.val, 0])

variable (V : (c : Dev nD) → (b : Ref sig .tc) → Buf (Elt Ideal) ((c : Thread nD τ).loc b))

/-- What point `t` writes back is block `t` of the layer's function of the arrays as the region finds them. -/
theorem flushed_eq (c : Dev nD) (t : Fin cfg3.N) :
    (dat3 (F := Ideal) V c).flushed 3 t
      = ((cfg3.win 3).blk t).view.read (Elt Ideal) (affine (V c main_v10) (V c main_v4) (rowOf (V c main_v11))) := by
  show (cfg3.win 3).cut (grid3.coords t) ((dat3 (F := Ideal) V c).after 3 t) = _
  rw [after3_3]
  unfold out3_3
  rw [View.canon_unit_zero hz]
  simp only [View.ld_unit_zero (S := S512x4096) hz, View.ld_unit_zero (S := S1024x4096) hz, View.ld_unit_zero (S := S1x1024) hz]
  obtain ⟨e0, e1, e2, e3, e4, e5, e6, e7⟩ := idx_facts t
  funext j
  obtain ⟨p, q, rfl⟩ : ∃ (p : Fin 512) (q : Fin 1024), j = ix2 p q := ⟨j 0, j 1, eq_ix2 j⟩
  have hp : p.val < 512 := p.isLt
  refine point_eq (V c main_v10) (V c main_v4) (V c main_v11) (iblk3 V c 0 t) (iblk3 V c 1 t) (iblk3 V c 2 t)
    (((cfg3.win 3).blk t).view.emb (ix2 p q)) p q ⟨win3_3.index t (0 : Fin 2) * 512 + p.val, by omega⟩ ?_ ?_ ?_ ?_
  · funext a; apply Fin.ext
    match a with
    | ⟨0, _⟩ => show win3_3.index t (0 : Fin 2) * 512 + 1 * p.val = win3_3.index t (0 : Fin 2) * 512 + p.val; omega
    | ⟨1, _⟩ => show win3_3.index t (1 : Fin 2) * 1024 + 1 * q.val = q.val; omega
  · intro k
    show V c main_v10 (((cfg3.win 0).blk t).view.emb (ix2 p k)) = V c main_v10 (ix2 ⟨win3_3.index t (0 : Fin 2) * 512 + p.val, by omega⟩ k)
    refine congrArg (V c main_v10) (funext fun a => Fin.ext ?_)
    match a with
    | ⟨0, _⟩ => show win3_0.index t (0 : Fin 2) * 512 + 1 * p.val = win3_3.index t (0 : Fin 2) * 512 + p.val; omega
    | ⟨1, _⟩ => show win3_0.index t (1 : Fin 2) * 4096 + 1 * k.val = k.val; omega
  · intro n k
    show V c main_v4 (((cfg3.win 1).blk t).view.emb (ix2 n k)) = V c main_v4 (ix2 n k)
    refine congrArg (V c main_v4) (funext fun a => Fin.ext ?_)
    match a with
    | ⟨0, _⟩ => show win3_1.index t (0 : Fin 2) * 1024 + 1 * n.val = n.val; omega
    | ⟨1, _⟩ => show win3_1.index t (1 : Fin 2) * 4096 + 1 * k.val = k.val; omega
  · intro n
    show V c main_v11 (((cfg3.win 2).blk t).view.emb (ix2 0 n)) = V c main_v11 (ix2 0 n)
    refine congrArg (V c main_v11) (funext fun a => Fin.ext ?_)
    match a with
    | ⟨0, _⟩ => show win3_2.index t (0 : Fin 2) * 1 + 1 * 0 = 0; omega
    | ⟨1, _⟩ => show win3_2.index t (1 : Fin 2) * 1024 + 1 * n.val = n.val; omega

/-- An index of the output array is in point `t`'s block iff each coordinate is in the block's range on its axis. -/
theorem mem_blk (t : Fin cfg3.N) (i : S4096x1024.Idx) :
    i ∈ ((cfg3.win 3).blk t).view.set ↔ ∀ a : Fin 2, win3_3.index t a * S512x1024.size a ≤ (i a).val ∧ (i a).val < win3_3.index t a * S512x1024.size a + S512x1024.size a := by
  show i ∈ ((View.whole main_v12).slice (win3_3.rect t)).set ↔ _
  rw [View.set_slice_whole, Rect.mem_set_unit]
  exact Iff.rfl

/-- The row blocks tile the output: row `r` is in the block of the point `r / 512`. -/
theorem cover (i : S4096x1024.Idx) : ∃ t : Fin cfg3.N, (cfg3.win 3).flush t = true ∧ i ∈ ((cfg3.win 3).blk t).view.set := by
  have hi0 : (i 0).val < 4096 := (i 0).isLt
  have hi1 : (i 1).val < 1024 := (i 1).isLt
  obtain ⟨t, ht⟩ := idx_onto ⟨(i 0).val / 512, by omega⟩
  have q0 : win3_3.index t (0 : Fin 2) = (i 0).val / 512 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 1024 ≤ (i 1).val ∧ (i 1).val < win3_3.index t (1 : Fin 2) * 1024 + 1024; omega

/-- The output array after the region: the layer's function of the region's input arrays. -/
theorem layer (c : Dev nD) : (dat3 (F := Ideal) V c).arrAt 3 cfg3.N
    = affine (V c main_v10) (V c main_v4) (rowOf (V c main_v11)) :=
  (dat3 (F := Ideal) V c).arrAt_eq_of_cover 3 _ (fun t _ => flushed_eq V c t) cover

end Cert.KernelIdeal.Layer3
end
-- ==== Proof.Chain.lean ====
/-
  The run of the four layers, read at the result buffer.

  The program is four layers in a row.  Before the first, the input and the four weight matrices are cast to a
  narrower float format and the first bias is reshaped from a vector to a one-row matrix; before each later layer
  its bias is reshaped the same way.  Layer `k` reads the previous layer's result buffer (the cast input for the
  first), its weight matrix and its bias row, and writes its own result buffer; nothing else writes that buffer.

  Given what each layer leaves in its result buffer in terms of what it finds in the three buffers it reads — a
  rectified affine map for the first three, an affine map for the last — the result buffer's final contents are
  the network of the specification applied to the launch arguments.  Three facts carry this:
    • at the ideal values a change of float format is the identity, so a cast buffer holds its argument;
    • a vector reshaped to `[1, N]` and read as the row of that matrix is the vector;
    • a buffer holds what its last writer left: every other layer and every other host operation leaves it alone.
-/
import proofs.«181596_j89962384982886_2_alg».proof.Proof.Gen.KernelIdeal.Frame
import proofs.«181596_j89962384982886_2_alg».proof.Proof.Spec
import Idealize.ShloMosaic.Lib.StableHlo.Run
import Idealize.ShloMosaic.Lib.Pipeline.Value
import Idealize.ShloMosaic.Lib.ValueLayout

noncomputable section

namespace Cert.KernelIdeal.Chain

open Idealize.ShloMosaic Idealize.ShloMosaic.TcCoe Idealize.SL.Sem Idealize.ShloMosaic.ValueIdx
open Cert.KernelIdeal Cert.KernelIdeal.Gen Cert.Mlp

variable (m : (ℓ : Loc nD τ sig) → Buf (Elt Ideal) ℓ) (ρ : Dev nD → PrngReg)

/-! ## A one-row matrix made from a vector, read back as its row -/

/-- Reshaping a vector of length `N` to a `[1, N]` matrix and reading that matrix's only row gives the vector
    back: entry `(0, n)` of the reshape is entry `n` of the vector. -/
theorem rowOf_shapeCast {N : Nat} (x : (⟨1, ![N]⟩ : Shape).Idx → EReal)
    (h : (⟨1, ![N]⟩ : Shape).ShapeCasts ⟨2, ![1, N]⟩) : rowOf (shapeCast ⟨2, ![1, N]⟩ x h) = x := by
  funext j
  have hj : x j = x (ix1 (j 0)) := congrArg x (eq_ix1 j)
  rw [hj]
  exact shapeCast_a_1a_apply x h 0 (j 0)

/-! ## What each stretch of host operations leaves alone

The first stretch casts the input and the four weight matrices to bf16 and reshapes the first bias to a row; each
later stretch only reshapes the next layer's bias to a row.  Every other buffer is as the stretch found it. -/

theorem W3_keep (c : Dev nD) (b : Ref sig .tc) (hb : b ≠ main_v7) :
    W3 m ρ c (Proc.devRef .tc b) = W2 m ρ c (Proc.devRef .tc b) := by
  show StableHlo.after hostOps1 _ (Proc.devRef .tc b) = _
  simp only [StableHlo.after_cons, StableHlo.after_nil]
  exact StableHlo.reshape_result_ne _ _ _ _ _ _ _ hb

theorem W5_keep (c : Dev nD) (b : Ref sig .tc) (hb : b ≠ main_v9) :
    W5 m ρ c (Proc.devRef .tc b) = W4 m ρ c (Proc.devRef .tc b) := by
  show StableHlo.after hostOps2 _ (Proc.devRef .tc b) = _
  simp only [StableHlo.after_cons, StableHlo.after_nil]
  exact StableHlo.reshape_result_ne _ _ _ _ _ _ _ hb

theorem W7_keep (c : Dev nD) (b : Ref sig .tc) (hb : b ≠ main_v11) :
    W7 m ρ c (Proc.devRef .tc b) = W6 m ρ c (Proc.devRef .tc b) := by
  show StableHlo.after hostOps3 _ (Proc.devRef .tc b) = _
  simp only [StableHlo.after_cons, StableHlo.after_nil]
  exact StableHlo.reshape_result_ne _ _ _ _ _ _ _ hb

/-! ## The casts: at the ideal values a change of float format is the identity -/

theorem W1_v0 (c : Dev nD) :
    W1 m ρ c (Proc.devRef .tc main_v0) = m ((c.tc : Thread nD τ).loc main_arg0) := by
  show StableHlo.after hostOps0 _ (Proc.devRef .tc main_v0) = _
  after_results
  rfl

theorem W1_v1 (c : Dev nD) :
    W1 m ρ c (Proc.devRef .tc main_v1) = m ((c.tc : Thread nD τ).loc main_arg1) := by
  show StableHlo.after hostOps0 _ (Proc.devRef .tc main_v1) = _
  after_results
  rfl

theorem W1_v2 (c : Dev nD) :
    W1 m ρ c (Proc.devRef .tc main_v2) = m ((c.tc : Thread nD τ).loc main_arg3) := by
  show StableHlo.after hostOps0 _ (Proc.devRef .tc main_v2) = _
  after_results
  rfl

theorem W1_v3 (c : Dev nD) :
    W1 m ρ c (Proc.devRef .tc main_v3) = m ((c.tc : Thread nD τ).loc main_arg5) := by
  show StableHlo.after hostOps0 _ (Proc.devRef .tc main_v3) = _
  after_results
  rfl

theorem W1_v4 (c : Dev nD) :
    W1 m ρ c (Proc.devRef .tc main_v4) = m ((c.tc : Thread nD τ).loc main_arg7) := by
  show StableHlo.after hostOps0 _ (Proc.devRef .tc main_v4) = _
  after_results
  rfl

/-- The first stretch writes none of the later biases. -/
theorem W1_arg4 (c : Dev nD) :
    W1 m ρ c (Proc.devRef .tc main_arg4) = m ((c.tc : Thread nD τ).loc main_arg4) := by
  show StableHlo.after hostOps0 _ (Proc.devRef .tc main_arg4) = _
  after_results

theorem W1_arg6 (c : Dev nD) :
    W1 m ρ c (Proc.devRef .tc main_arg6) = m ((c.tc : Thread nD τ).loc main_arg6) := by
  show StableHlo.after hostOps0 _ (Proc.devRef .tc main_arg6) = _
  after_results

theorem W1_arg8 (c : Dev nD) :
    W1 m ρ c (Proc.devRef .tc main_arg8) = m ((c.tc : Thread nD τ).loc main_arg8) := by
  show StableHlo.after hostOps0 _ (Proc.devRef .tc main_arg8) = _
  after_results

/-! ## The weights where they are read

Each weight matrix is cast once, before the first layer, and read by its own layer only; no later stretch and no
earlier layer writes it, so it still holds the launch argument when its layer starts. -/

/-- The second layer's weights, when that layer starts. -/
theorem W3_v2 (c : Dev nD) :
    W3 m ρ c (Proc.devRef .tc main_v2) = m ((c.tc : Thread nD τ).loc main_arg3) :=
  calc W3 m ρ c (Proc.devRef .tc main_v2)
    _ = W2 m ρ c (Proc.devRef .tc main_v2) := W3_keep m ρ c main_v2 (by decide)
    _ = W1 m ρ c (Proc.devRef .tc main_v2) := W2_of_ne m ρ c main_v2 (by decide)
    _ = m ((c.tc : Thread nD τ).loc main_arg3) := W1_v2 m ρ c

/-- The third layer's weights, when that layer starts. -/
theorem W5_v3 (c : Dev nD) :
    W5 m ρ c (Proc.devRef .tc main_v3) = m ((c.tc : Thread nD τ).loc main_arg5) :=
  calc W5 m ρ c (Proc.devRef .tc main_v3)
    _ = W4 m ρ c (Proc.devRef .tc main_v3) := W5_keep m ρ c main_v3 (by decide)
    _ = W3 m ρ c (Proc.devRef .tc main_v3) := W4_of_ne m ρ c main_v3 (by decide)
    _ = W2 m ρ c (Proc.devRef .tc main_v3) := W3_keep m ρ c main_v3 (by decide)
    _ = W1 m ρ c (Proc.devRef .tc main_v3) := W2_of_ne m ρ c main_v3 (by decide)
    _ = m ((c.tc : Thread nD τ).loc main_arg5) := W1_v3 m ρ c

/-- The last layer's weights, when that layer starts. -/
theorem W7_v4 (c : Dev nD) :
    W7 m ρ c (Proc.devRef .tc main_v4) = m ((c.tc : Thread nD τ).loc main_arg7) :=
  calc W7 m ρ c (Proc.devRef .tc main_v4)
    _ = W6 m ρ c (Proc.devRef .tc main_v4) := W7_keep m ρ c main_v4 (by decide)
    _ = W5 m ρ c (Proc.devRef .tc main_v4) := W6_of_ne m ρ c main_v4 (by decide)
    _ = W4 m ρ c (Proc.devRef .tc main_v4) := W5_keep m ρ c main_v4 (by decide)
    _ = W3 m ρ c (Proc.devRef .tc main_v4) := W4_of_ne m ρ c main_v4 (by decide)
    _ = W2 m ρ c (Proc.devRef .tc main_v4) := W3_keep m ρ c main_v4 (by decide)
    _ = W1 m ρ c (Proc.devRef .tc main_v4) := W2_of_ne m ρ c main_v4 (by decide)
    _ = m ((c.tc : Thread nD τ).loc main_arg7) := W1_v4 m ρ c

/-! ## The biases where they are read

Each bias is reshaped to a one-row matrix just before its layer; the vector it is made from is a launch argument
nothing writes, and the row read back is that vector. -/

/-- The second bias is still the launch argument when it is reshaped. -/
theorem W2_arg4 (c : Dev nD) :
    W2 m ρ c (Proc.devRef .tc main_arg4) = m ((c.tc : Thread nD τ).loc main_arg4) :=
  (W2_of_ne m ρ c main_arg4 (by decide)).trans (W1_arg4 m ρ c)

/-- The third bias is still the launch argument when it is reshaped. -/
theorem W4_arg6 (c : Dev nD) :
    W4 m ρ c (Proc.devRef .tc main_arg6) = m ((c.tc : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = m ((c.tc : Thread nD τ).loc main_arg6) := W1_arg6 m ρ c

/-- The last bias is still the launch argument when it is reshaped. -/
theorem W6_arg8 (c : Dev nD) :
    W6 m ρ c (Proc.devRef .tc main_arg8) = m ((c.tc : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := W5_keep m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = m ((c.tc : Thread nD τ).loc main_arg8) := W1_arg8 m ρ c

/-- The first bias, as the first layer reads it. -/
theorem rowOf_W1_v5 (c : Dev nD) :
    rowOf (W1 m ρ c (Proc.devRef .tc main_v5)) = m ((c.tc : Thread nD τ).loc main_arg2) := by
  have e : W1 m ρ c (Proc.devRef .tc main_v5)
      = shapeCast S1x4096 (m ((c.tc : Thread nD τ).loc main_arg2) : S4096.Idx → EReal) shapeCasts_S4096_S1x4096 := by
    show StableHlo.after hostOps0 _ (Proc.devRef .tc main_v5) = _
    after_results
    rfl
  exact (congrArg rowOf e).trans (rowOf_shapeCast _ _)

/-- The second bias, as the second layer reads it. -/
theorem rowOf_W3_v7 (c : Dev nD) :
    rowOf (W3 m ρ c (Proc.devRef .tc main_v7)) = m ((c.tc : Thread nD τ).loc main_arg4) := by
  have e : W3 m ρ c (Proc.devRef .tc main_v7)
      = shapeCast S1x4096 (W2 m ρ c (Proc.devRef .tc main_arg4) : S4096.Idx → EReal) shapeCasts_S4096_S1x4096 := by
    show StableHlo.after hostOps1 _ (Proc.devRef .tc main_v7) = _
    after_results
    rfl
  exact (congrArg rowOf e).trans ((rowOf_shapeCast _ _).trans (W2_arg4 m ρ c))

/-- The third bias, as the third layer reads it. -/
theorem rowOf_W5_v9 (c : Dev nD) :
    rowOf (W5 m ρ c (Proc.devRef .tc main_v9)) = m ((c.tc : Thread nD τ).loc main_arg6) := by
  have e : W5 m ρ c (Proc.devRef .tc main_v9)
      = shapeCast S1x4096 (W4 m ρ c (Proc.devRef .tc main_arg6) : S4096.Idx → EReal) shapeCasts_S4096_S1x4096 := by
    show StableHlo.after hostOps2 _ (Proc.devRef .tc main_v9) = _
    after_results
    rfl
  exact (congrArg rowOf e).trans ((rowOf_shapeCast _ _).trans (W4_arg6 m ρ c))

/-- The last bias, as the last layer reads it. -/
theorem rowOf_W7_v11 (c : Dev nD) :
    rowOf (W7 m ρ c (Proc.devRef .tc main_v11)) = m ((c.tc : Thread nD τ).loc main_arg8) := by
  have e : W7 m ρ c (Proc.devRef .tc main_v11)
      = shapeCast S1x1024 (W6 m ρ c (Proc.devRef .tc main_arg8) : S1024.Idx → EReal) shapeCasts_S1024_S1x1024 := by
    show StableHlo.after hostOps3 _ (Proc.devRef .tc main_v11) = _
    after_results
    rfl
  exact (congrArg rowOf e).trans ((rowOf_shapeCast _ _).trans (W6_arg8 m ρ c))

/-! ## The activations, layer by layer

Each layer's result buffer is written by that layer only and read by the next: the stretch of host operations in
between leaves it alone.  So the next layer's input is what the layer's write-backs left, which is the rectified
affine map of the layer's own inputs; with the casts the identity and each bias row the bias vector, that is the
layer of the specification applied to the previous activations. -/

/-- The first layer's activations, when the second layer starts. -/
theorem W3_v6 (c : Dev nD)
    (h0 : ∀ (V : (c : Dev nD) → (b : Ref sig .tc) → Buf (Elt Ideal) ((c : Thread nD τ).loc b)) (c : Dev nD), (dat0 (F := Ideal) V c).arrAt 3 cfg0.N = relu (affine (V c main_v0) (V c main_v1) (rowOf (V c main_v5)))) :
    W3 m ρ c (Proc.devRef .tc main_v6)
      = relu (affine (m ((c.tc : Thread nD τ).loc main_arg0)) (m ((c.tc : Thread nD τ).loc main_arg1)) (m ((c.tc : Thread nD τ).loc main_arg2))) := by
  have e1 : W3 m ρ c (Proc.devRef .tc main_v6) = W2 m ρ c (Proc.devRef .tc main_v6) :=
    W3_keep m ρ c main_v6 (by decide)
  have e2 : W2 m ρ c (Proc.devRef .tc main_v6) = (dat0 (V1 m ρ) c).arrAt 3 cfg0.N := W2_arr m ρ c 3
  have e3 : (dat0 (V1 m ρ) c).arrAt 3 cfg0.N
      = relu (affine (W1 m ρ c (Proc.devRef .tc main_v0)) (W1 m ρ c (Proc.devRef .tc main_v1))
          (rowOf (W1 m ρ c (Proc.devRef .tc main_v5)))) := h0 (V1 m ρ) c
  rw [e1, e2, e3, W1_v0, W1_v1, rowOf_W1_v5]

/-- The second layer's activations, when the third layer starts. -/
theorem W5_v8 (c : Dev nD)
    (h0 : ∀ (V : (c : Dev nD) → (b : Ref sig .tc) → Buf (Elt Ideal) ((c : Thread nD τ).loc b)) (c : Dev nD), (dat0 (F := Ideal) V c).arrAt 3 cfg0.N = relu (affine (V c main_v0) (V c main_v1) (rowOf (V c main_v5))))
    (h1 : ∀ (V : (c : Dev nD) → (b : Ref sig .tc) → Buf (Elt Ideal) ((c : Thread nD τ).loc b)) (c : Dev nD), (dat1 (F := Ideal) V c).arrAt 3 cfg1.N = relu (affine (V c main_v6) (V c main_v2) (rowOf (V c main_v7)))) :
    W5 m ρ c (Proc.devRef .tc main_v8)
      = relu (affine (relu (affine (m ((c.tc : Thread nD τ).loc main_arg0)) (m ((c.tc : Thread nD τ).loc main_arg1)) (m ((c.tc : Thread nD τ).loc main_arg2)))) (m ((c.tc : Thread nD τ).loc main_arg3)) (m ((c.tc : Thread nD τ).loc main_arg4))) := by
  have e1 : W5 m ρ c (Proc.devRef .tc main_v8) = W4 m ρ c (Proc.devRef .tc main_v8) :=
    W5_keep m ρ c main_v8 (by decide)
  have e2 : W4 m ρ c (Proc.devRef .tc main_v8) = (dat1 (V3 m ρ) c).arrAt 3 cfg1.N := W4_arr m ρ c 3
  have e3 : (dat1 (V3 m ρ) c).arrAt 3 cfg1.N
      = relu (affine (W3 m ρ c (Proc.devRef .tc main_v6)) (W3 m ρ c (Proc.devRef .tc main_v2))
          (rowOf (W3 m ρ c (Proc.devRef .tc main_v7)))) := h1 (V3 m ρ) c
  rw [e1, e2, e3, W3_v6 m ρ c h0, W3_v2, rowOf_W3_v7]

/-- The third layer's activations, when the last layer starts. -/
theorem W7_v10 (c : Dev nD)
    (h0 : ∀ (V : (c : Dev nD) → (b : Ref sig .tc) → Buf (Elt Ideal) ((c : Thread nD τ).loc b)) (c : Dev nD), (dat0 (F := Ideal) V c).arrAt 3 cfg0.N = relu (affine (V c main_v0) (V c main_v1) (rowOf (V c main_v5))))
    (h1 : ∀ (V : (c : Dev nD) → (b : Ref sig .tc) → Buf (Elt Ideal) ((c : Thread nD τ).loc b)) (c : Dev nD), (dat1 (F := Ideal) V c).arrAt 3 cfg1.N = relu (affine (V c main_v6) (V c main_v2) (rowOf (V c main_v7))))
    (h2 : ∀ (V : (c : Dev nD) → (b : Ref sig .tc) → Buf (Elt Ideal) ((c : Thread nD τ).loc b)) (c : Dev nD), (dat2 (F := Ideal) V c).arrAt 3 cfg2.N = relu (affine (V c main_v8) (V c main_v3) (rowOf (V c main_v9)))) :
    W7 m ρ c (Proc.devRef .tc main_v10)
      = relu (affine (relu (affine (relu (affine (m ((c.tc : Thread nD τ).loc main_arg0)) (m ((c.tc : Thread nD τ).loc main_arg1)) (m ((c.tc : Thread nD τ).loc main_arg2)))) (m ((c.tc : Thread nD τ).loc main_arg3)) (m ((c.tc : Thread nD τ).loc main_arg4)))) (m ((c.tc : Thread nD τ).loc main_arg5)) (m ((c.tc : Thread nD τ).loc main_arg6))) := by
  have e1 : W7 m ρ c (Proc.devRef .tc main_v10) = W6 m ρ c (Proc.devRef .tc main_v10) :=
    W7_keep m ρ c main_v10 (by decide)
  have e2 : W6 m ρ c (Proc.devRef .tc main_v10) = (dat2 (V5 m ρ) c).arrAt 3 cfg2.N := W6_arr m ρ c 3
  have e3 : (dat2 (V5 m ρ) c).arrAt 3 cfg2.N
      = relu (affine (W5 m ρ c (Proc.devRef .tc main_v8)) (W5 m ρ c (Proc.devRef .tc main_v3))
          (rowOf (W5 m ρ c (Proc.devRef .tc main_v9)))) := h2 (V5 m ρ) c
  rw [e1, e2, e3, W5_v8 m ρ c h0 h1, W5_v3, rowOf_W5_v9]

/-! ## The result -/

/-- The result buffer is written by the last layer only, and nothing follows it: its final contents are the whole
    network applied to the launch arguments. -/
theorem out_eq (c : Dev nD)
    (h0 : ∀ (V : (c : Dev nD) → (b : Ref sig .tc) → Buf (Elt Ideal) ((c : Thread nD τ).loc b)) (c : Dev nD), (dat0 (F := Ideal) V c).arrAt 3 cfg0.N = relu (affine (V c main_v0) (V c main_v1) (rowOf (V c main_v5))))
    (h1 : ∀ (V : (c : Dev nD) → (b : Ref sig .tc) → Buf (Elt Ideal) ((c : Thread nD τ).loc b)) (c : Dev nD), (dat1 (F := Ideal) V c).arrAt 3 cfg1.N = relu (affine (V c main_v6) (V c main_v2) (rowOf (V c main_v7))))
    (h2 : ∀ (V : (c : Dev nD) → (b : Ref sig .tc) → Buf (Elt Ideal) ((c : Thread nD τ).loc b)) (c : Dev nD), (dat2 (F := Ideal) V c).arrAt 3 cfg2.N = relu (affine (V c main_v8) (V c main_v3) (rowOf (V c main_v9))))
    (h3 : ∀ (V : (c : Dev nD) → (b : Ref sig .tc) → Buf (Elt Ideal) ((c : Thread nD τ).loc b)) (c : Dev nD), (dat3 (F := Ideal) V c).arrAt 3 cfg3.N = affine (V c main_v10) (V c main_v4) (rowOf (V c main_v11))) :
    W8 m ρ c (Proc.devRef .tc main_v12) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have e2 : W8 m ρ c (Proc.devRef .tc main_v12) = (dat3 (V7 m ρ) c).arrAt 3 cfg3.N := W8_arr m ρ c 3
  have e3 : (dat3 (V7 m ρ) c).arrAt 3 cfg3.N
      = affine (W7 m ρ c (Proc.devRef .tc main_v10)) (W7 m ρ c (Proc.devRef .tc main_v4))
          (rowOf (W7 m ρ c (Proc.devRef .tc main_v11))) := h3 (V7 m ρ) c
  rw [e2, e3, W7_v10 m ρ c h0 h1 h2, W7_v4, rowOf_W7_v11]
  rfl

end Cert.KernelIdeal.Chain

end
-- ==== Proof.RunValue.lean ====
/-
  The kernel program's run, with its result array named.

  At the compiled mesh, from any launch memory `m` with every counter at zero and any generator registers `ρ`,
  every weakly fair execution of the program on the TensorCores terminates without a fault, and in every final
  state, on every core `c`:
    * the result buffer holds the contents of the last segment boundary, `W8 m ρ c` read at that buffer — the
      fold of the program's host stretches and its four pipelined regions, started from the launch memory;
    * each of the nine argument buffers holds exactly what it held at launch.

  The program is a chain of eight segments (a stretch of host operations, then a pipelined region, four times
  over).  The thread state carried through the chain says that every unscoped buffer of the core sits at the
  current boundary's contents; at the end of the chain that is `W8`.  Reading that last thread state against the
  final machine state gives, for every unscoped buffer `b`, `mem (c, b) = W8 m ρ c b`.  The result buffer is an
  unscoped buffer in the large memory, so the equation at it is the first conjunct as it stands; at an argument
  buffer the fold walks back to the launch memory, since no host operation and no region writes an argument.
-/
import proofs.«181596_j89962384982886_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the statement below is matched against the general launch theorem's conclusion up to unfolding of the
-- definitions that occur in types
set_option backward.isDefEq.respectTransparency.types false in
/-- Every weakly fair execution of the program terminates; the result buffer ends at the last boundary's contents
    `W8 m ρ c`, and every argument buffer ends as launched. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v12) = W8 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch's tokens are owned through the embedding; no core is given anything more
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    -- each segment is entered from the thread state the one before it leaves
    (hch := ⟨fun _ => .rfl, fun _ => .rfl, fun _ => .rfl, fun _ => .rfl, fun _ => .rfl, fun _ => .rfl, fun _ => .rfl, fun _ => .rfl, fun _ => .rfl⟩)
    -- the launch memory gives the first thread state: every unscoped buffer at its launch contents
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- what the last thread state says of a final state: every unscoped buffer at `W8`
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    -- the result buffer's equation as it stands; an argument's, walked back through the fold to the launch memory
    (hQ := fun s h c =>
      ⟨h c _ (mem_uc main_v12 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.RunValue

end
-- ==== Proof.RefNet.lean ====
/-
  The reference program computes the network of the specification.

  Each of its four layers is a transpose of the weight matrix, a contraction of the previous activations with
  that transpose, a bias stretched first to one row and then to every row, a sum, and (in the first three
  layers) a maximum with a constant zero stretched to the whole matrix.  Read at an entry `(r, n)`:
  the contraction is `∑ k, h (r, k) · wᵀ (k, n)`, and `wᵀ (k, n)` is `w (n, k)`; the stretched bias is
  `b n` whatever the row; the stretched constant is `0`.  So the entry is the affine layer's entry,
  rectified where the program rectifies.  No law of arithmetic is used: every step only says which entry of
  which operand an entry of the result reads.
-/
import proofs.«181596_j89962384982886_2_alg».proof.Proof.Gen.ReferenceIdeal.Read
import proofs.«181596_j89962384982886_2_alg».proof.Proof.Spec

noncomputable section

namespace Cert.ReferenceIdeal.RefValue

open Idealize.ShloMosaic Idealize.ShloMosaic.ValueIdx Cert.ReferenceIdeal Cert.ReferenceIdeal.Read Cert.Mlp

/-! ## Layer 1 -/

/-- Before the rectifier, the first layer's entry `(r, n)` is `∑ k, x (r, k) · w₁ (n, k) + b₁ n`: the contraction reads
    row `r` of `x` against column `n` of the transposed weights, which is row `n` of the weights, and the bias
    stretched along the rows is read at its column `n`. -/
theorem pre1 (x0 x1 : (⟨S4096x1024, .f32⟩ : BufTy).Contents (Elt Ideal)) (x2 : (⟨S4096, .f32⟩ : BufTy).Contents (Elt Ideal)) :
    val_main_v4 (F := Ideal) x0 x1 x2 = affine x0 x1 x2 := by
  funext i
  obtain ⟨r, n, rfl⟩ : ∃ r n, i = ix2 r n := ⟨i 0, i 1, eq_ix2 i⟩
  rw [val_main_v4_apply, val_main_v1_apply, val_main_v3_apply, val_main_v2_apply, affine_apply, Ideal.addf_def]
  have hl : ∀ k : Fin 1024, lidx_main_v1 (ix2 r n) k = ix2 r k := fun k =>
    funext fun a => match a with | ⟨0, _⟩ => rfl | ⟨1, _⟩ => rfl
  have hr : ∀ k : Fin 1024, idx_main_v0 (ridx_main_v1 (ix2 r n) k) = ix2 n k := fun k =>
    funext fun a => match a with | ⟨0, _⟩ => rfl | ⟨1, _⟩ => rfl
  have hb : idx_main_v2 (idx_main_v3 (ix2 r n)) = ix1 n :=
    funext fun a => match a with | ⟨0, _⟩ => rfl
  rw [hb]
  refine congrArg (· + x2 (ix1 n)) ?_
  refine Finset.sum_congr rfl fun k _ => ?_
  rw [val_main_v0_apply, hl, hr]

/-- The first layer's output is its affine part rectified: the constant the maximum is taken with is `0` at every entry. -/
theorem act1 (x0 x1 : (⟨S4096x1024, .f32⟩ : BufTy).Contents (Elt Ideal)) (x2 : (⟨S4096, .f32⟩ : BufTy).Contents (Elt Ideal)) :
    val_main_v5 (F := Ideal) x0 x1 x2 = relu (affine x0 x1 x2) := by
  funext i
  rw [val_main_v5_apply, val_main_call0_v0_apply, val_main_call0_cst_apply, Ideal.ofBits_def, Ideal.ofBits_zero_f32,
    Ideal.maximumf_def, relu_apply, pre1]

/-! ## Layer 2 -/

/-- Before the rectifier, the second layer's entry `(r, n)` is `∑ k, h₁ (r, k) · w₂ (n, k) + b₂ n`, where `h₁` is the
    first layer's output: the same reading as in the first layer, with `h₁` in the place of `x`. -/
theorem pre2 (x0 x1 : (⟨S4096x1024, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) :
    val_main_v10 (F := Ideal) x0 x1 x2 x3 x4 = affine (val_main_v5 (F := Ideal) x0 x1 x2) x3 x4 := by
  funext i
  obtain ⟨r, n, rfl⟩ : ∃ r n, i = ix2 r n := ⟨i 0, i 1, eq_ix2 i⟩
  rw [val_main_v10_apply, val_main_v7_apply, val_main_v9_apply, val_main_v8_apply, affine_apply, Ideal.addf_def]
  have hl : ∀ k : Fin 4096, lidx_main_v7 (ix2 r n) k = ix2 r k := fun k =>
    funext fun a => match a with | ⟨0, _⟩ => rfl | ⟨1, _⟩ => rfl
  have hr : ∀ k : Fin 4096, idx_main_v6 (ridx_main_v7 (ix2 r n) k) = ix2 n k := fun k =>
    funext fun a => match a with | ⟨0, _⟩ => rfl | ⟨1, _⟩ => rfl
  have hb : idx_main_v8 (idx_main_v9 (ix2 r n)) = ix1 n :=
    funext fun a => match a with | ⟨0, _⟩ => rfl
  rw [hb]
  refine congrArg (· + x4 (ix1 n)) ?_
  refine Finset.sum_congr rfl fun k _ => ?_
  rw [val_main_v6_apply, hl, hr]

/-- The second layer's output is its affine part rectified. -/
theorem act2 (x0 x1 : (⟨S4096x1024, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) :
    val_main_v11 (F := Ideal) x0 x1 x2 x3 x4 = relu (affine (val_main_v5 (F := Ideal) x0 x1 x2) x3 x4) := by
  funext i
  rw [val_main_v11_apply, val_main_call1_v0_apply, val_main_call1_cst_apply, Ideal.ofBits_def, Ideal.ofBits_zero_f32,
    Ideal.maximumf_def, relu_apply, pre2]

/-! ## Layer 3 -/

/-- Before the rectifier, the third layer's entry `(r, n)` is `∑ k, h₂ (r, k) · w₃ (n, k) + b₃ n`, where `h₂` is the
    second layer's output. -/
theorem pre3 (x0 x1 : (⟨S4096x1024, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) (x5 : (⟨S4096x4096, .f32⟩ : BufTy).Contents (Elt Ideal)) (x6 : (⟨S4096, .f32⟩ : BufTy).Contents (Elt Ideal)) :
    val_main_v16 (F := Ideal) x0 x1 x2 x3 x4 x5 x6 = affine (val_main_v11 (F := Ideal) x0 x1 x2 x3 x4) x5 x6 := by
  funext i
  obtain ⟨r, n, rfl⟩ : ∃ r n, i = ix2 r n := ⟨i 0, i 1, eq_ix2 i⟩
  rw [val_main_v16_apply, val_main_v13_apply, val_main_v15_apply, val_main_v14_apply, affine_apply, Ideal.addf_def]
  have hl : ∀ k : Fin 4096, lidx_main_v13 (ix2 r n) k = ix2 r k := fun k =>
    funext fun a => match a with | ⟨0, _⟩ => rfl | ⟨1, _⟩ => rfl
  have hr : ∀ k : Fin 4096, idx_main_v12 (ridx_main_v13 (ix2 r n) k) = ix2 n k := fun k =>
    funext fun a => match a with | ⟨0, _⟩ => rfl | ⟨1, _⟩ => rfl
  have hb : idx_main_v14 (idx_main_v15 (ix2 r n)) = ix1 n :=
    funext fun a => match a with | ⟨0, _⟩ => rfl
  rw [hb]
  refine congrArg (· + x6 (ix1 n)) ?_
  refine Finset.sum_congr rfl fun k _ => ?_
  rw [val_main_v12_apply, hl, hr]

/-- The third layer's output is its affine part rectified. -/
theorem act3 (x0 x1 : (⟨S4096x1024, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) (x5 : (⟨S4096x4096, .f32⟩ : BufTy).Contents (Elt Ideal)) (x6 : (⟨S4096, .f32⟩ : BufTy).Contents (Elt Ideal)) :
    val_main_v17 (F := Ideal) x0 x1 x2 x3 x4 x5 x6 = relu (affine (val_main_v11 (F := Ideal) x0 x1 x2 x3 x4) x5 x6) := by
  funext i
  rw [val_main_v17_apply, val_main_call2_v0_apply, val_main_call2_cst_apply, Ideal.ofBits_def, Ideal.ofBits_zero_f32,
    Ideal.maximumf_def, relu_apply, pre3]

/-! ## Layer 4 -/

/-- The last layer is not rectified: its entry `(r, n)` is `∑ k, h₃ (r, k) · w₄ (n, k) + b₄ n`, where `h₃` is the third
    layer's output; here the rows of `w₄` have length `4096` and there are `1024` of them. -/
theorem pre4 (x0 x1 : (⟨S4096x1024, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) (x5 : (⟨S4096x4096, .f32⟩ : BufTy).Contents (Elt Ideal)) (x6 : (⟨S4096, .f32⟩ : BufTy).Contents (Elt Ideal)) (x7 : (⟨S1024x4096, .f32⟩ : BufTy).Contents (Elt Ideal)) (x8 : (⟨S1024, .f32⟩ : BufTy).Contents (Elt Ideal)) :
    val_main_v22 (F := Ideal) x0 x1 x2 x3 x4 x5 x6 x7 x8 = affine (val_main_v17 (F := Ideal) x0 x1 x2 x3 x4 x5 x6) x7 x8 := by
  funext i
  obtain ⟨r, n, rfl⟩ : ∃ r n, i = ix2 r n := ⟨i 0, i 1, eq_ix2 i⟩
  rw [val_main_v22_apply, val_main_v19_apply, val_main_v21_apply, val_main_v20_apply, affine_apply, Ideal.addf_def]
  have hl : ∀ k : Fin 4096, lidx_main_v19 (ix2 r n) k = ix2 r k := fun k =>
    funext fun a => match a with | ⟨0, _⟩ => rfl | ⟨1, _⟩ => rfl
  have hr : ∀ k : Fin 4096, idx_main_v18 (ridx_main_v19 (ix2 r n) k) = ix2 n k := fun k =>
    funext fun a => match a with | ⟨0, _⟩ => rfl | ⟨1, _⟩ => rfl
  have hb : idx_main_v20 (idx_main_v21 (ix2 r n)) = ix1 n :=
    funext fun a => match a with | ⟨0, _⟩ => rfl
  rw [hb]
  refine congrArg (· + x8 (ix1 n)) ?_
  refine Finset.sum_congr rfl fun k _ => ?_
  rw [val_main_v18_apply, hl, hr]

/-! ## The whole program -/

/-- The reference's result is the network of the specification: the four layers above, each fed the previous one's output. -/
theorem ref_is_net (x0 x1 : (⟨S4096x1024, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) (x5 : (⟨S4096x4096, .f32⟩ : BufTy).Contents (Elt Ideal)) (x6 : (⟨S4096, .f32⟩ : BufTy).Contents (Elt Ideal)) (x7 : (⟨S1024x4096, .f32⟩ : BufTy).Contents (Elt Ideal)) (x8 : (⟨S1024, .f32⟩ : BufTy).Contents (Elt Ideal)) :
    Cert.ReferenceIdeal.Read.val_main_v22 (F := Ideal) x0 x1 x2 x3 x4 x5 x6 x7 x8 = Cert.Mlp.net x0 x1 x2 x3 x4 x5 x6 x7 x8 := by
  rw [pre4, act3, act2, act1]
  rfl

end Cert.ReferenceIdeal.RefValue

end
-- ==== Proof.lean ====
/-
  The certificate of a four-layer perceptron: the kernel program runs each layer `h ↦ h · Wᵀ + b` (the first three
  followed by a rectifier) as one pipelined region over blocks of batch rows, with the operands cast to a
  narrower float format on the way in; the reference is the same network in plain array operations.

  At the ideal values a float is an extended real, every operation is the exact one and a change of format is the
  identity.  Both programs then compute the same function `Cert.Mlp.net` of the nine argument arrays, entry by
  entry: a matrix product is the same finite sum of products on both sides (the kernel's accumulator starts at
  zero, and `0 + s = s` on the extended reals), the bias is read at the entry's column, the rectifier is `max · 0`.
  No law beyond these readings is needed, so the precondition (finite inputs) is never opened.

  The pieces: `Spec` states the network; `Layer0` … `Layer3` show that each region leaves its output array at
  the layer's function of its three input arrays (what a grid point writes back is a row block of that function,
  and the row blocks tile the array); `Chain` follows the buffers from one region to the next through the host
  operations between them (casts, which are the identity, and reshapes of each bias into a row); `RunValue` is the
  program's run with the result buffer's final contents named; `RefNet` reads the reference's operations one at a
  time.  Below, the three frames, the idealization claim (nothing was rewritten) and the equality of results.
-/
import proofs.«181596_j89962384982886_2_alg».proof.Defs
import proofs.«181596_j89962384982886_2_alg».proof.Proof.Gen.Kernel
import proofs.«181596_j89962384982886_2_alg».proof.Proof.Gen.Kernel.Frame
import proofs.«181596_j89962384982886_2_alg».proof.Proof.Gen.KernelIdeal
import proofs.«181596_j89962384982886_2_alg».proof.Proof.Gen.KernelIdeal.Frame
import proofs.«181596_j89962384982886_2_alg».proof.Proof.Gen.ReferenceIdeal
import proofs.«181596_j89962384982886_2_alg».proof.Proof.Gen.Pre_finite_inputs
import proofs.«181596_j89962384982886_2_alg».proof.Proof.Gen.ReferenceIdeal.Run
import proofs.«181596_j89962384982886_2_alg».proof.Proof.Gen.ReferenceIdeal.Read
import proofs.«181596_j89962384982886_2_alg».proof.Proof.Spec
import proofs.«181596_j89962384982886_2_alg».proof.Proof.Layer0
import proofs.«181596_j89962384982886_2_alg».proof.Proof.Layer1
import proofs.«181596_j89962384982886_2_alg».proof.Proof.Layer2
import proofs.«181596_j89962384982886_2_alg».proof.Proof.Layer3
import proofs.«181596_j89962384982886_2_alg».proof.Proof.Chain
import proofs.«181596_j89962384982886_2_alg».proof.Proof.RunValue
import proofs.«181596_j89962384982886_2_alg».proof.Proof.RefNet
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a line of host operations: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealized kernel program ends with its result buffer at the network of its launch arguments, which it leaves
    unchanged: the run with the result named, then the buffers followed through the four regions. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v12) = Cert.Mlp.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono
    (fun _ h c => ⟨(h c).1.trans (Cert.KernelIdeal.Chain.out_eq m ρ c Cert.KernelIdeal.Layer0.layer Cert.KernelIdeal.Layer1.layer
      Cert.KernelIdeal.Layer2.layer Cert.KernelIdeal.Layer3.layer), (h c).2⟩)
    (Cert.KernelIdeal.RunValue.run_value (F := Ideal) m ρ)

/-- From memories that agree on the arguments both idealized programs end with the network of those arguments in their
    result buffers. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Mlp.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  exact (Cert.ReferenceIdeal.Read.val_main_v22_eq (F := Ideal) _ _ _ _ _ _ _ _ _).trans (Cert.ReferenceIdeal.RefValue.ref_is_net _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
